-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4x2048x4096 .f32) (main_arg1 : FVec F S4096x4096 .f32) (main_arg2 : FVec F S4096x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S8192x4096 : Shape := ⟨2, ![8192, 4096]⟩
abbrev S2048x256 : Shape := ⟨2, ![2048, 256]⟩
abbrev S1024x256 : Shape := ⟨2, ![1024, 256]⟩
abbrev S1024x1 : Shape := ⟨2, ![1024, 1]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x1, .f32⟩
  | .hbm, ⟨3, _⟩ => ⟨S8192x4096, .f32⟩
  | .hbm, ⟨4, _⟩ => ⟨S8192x4096, .f32⟩
  | .hbm, ⟨5, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S2048x1024, .f32⟩
  | .local _ .vmem, ⟨7, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  broadcasts_S1024x1_S1024x256 : S1024x1.Broadcasts S1024x256
  shapeCasts_S2048x1024_S2048x1024 : S2048x1024.ShapeCasts S2048x1024
  shapeCasts_S8192x4096_S4x2048x4096 : S8192x4096.ShapeCasts S4x2048x4096
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x1, .f32⟩
  | .hbm, ⟨3, _⟩ => ⟨S4096x4096, .f32⟩
  | .hbm, ⟨4, _⟩ => ⟨S4096x4096, .f32⟩
  | .hbm, ⟨5, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of the quantized linear layer, free of either program.

  With activations X : [8192, 4096] (the [4, 2048, 4096] input with its two leading axes merged), weights
  W : [4096, 4096] and per-row scales S : [4096, 1], the result is

      Y(r, n) = Σ_{k < 4096} X(r, k) · (W(n, k) · S(n, 0)).

  The kernel computes it block by block: grid point number t = 64·i + 16·j + kb adds, into the output block at rows
  2048·i … and columns 1024·j …, the partial sum over the 256 contraction indices 256·kb …. The one law that joins the
  two sides is that a sum over 4096 indices is the sum over 16 consecutive runs of 256 of them — a regrouping, valid in
  any commutative monoid, so on the extended reals it needs no finiteness.
-/
import Idealize.ShloMosaic.Lib.ValueIdx
import Idealize.ShloMosaic.PureOps.Ideal

noncomputable section

namespace Cert.QLinear

open Idealize.ShloMosaic Idealize.ShloMosaic.ValueIdx

/-! ## Coordinates of grid point number `n` = 64·i + 16·j + kb -/

/-- Row `p` of the activations' (and of the output's) block at point `n`, in the array: 2048·i + p. -/
def rowX (n : ℕ) (p : Fin 2048) : Fin 8192 := ⟨2048 * (n / 64 % 4) + p.val, by have := p.isLt; omega⟩
/-- Column `k` of the activations' (and of the weights') block at point `n`, in the array: 256·kb + k. -/
def colK (n : ℕ) (k : Fin 256) : Fin 4096 := ⟨256 * (n % 16) + k.val, by have := k.isLt; omega⟩
/-- Row `q` of the weights' (and of the scales') block at point `n`, in the array — the output's column: 1024·j + q. -/
def rowW (n : ℕ) (q : Fin 1024) : Fin 4096 := ⟨1024 * (n / 16 % 4) + q.val, by have := q.isLt; omega⟩

/-- Along one run of the contraction axis (the 16 points sharing i and j) the output block's rows stay put, -/
theorem rowX_run (n s : ℕ) (hs : s < 16) (p : Fin 2048) : rowX (16 * (n / 16) + s) p = rowX n p :=
  Fin.ext (by show 2048 * ((16 * (n / 16) + s) / 64 % 4) + p.val = 2048 * (n / 64 % 4) + p.val; omega)
/-- so do its columns, -/
theorem rowW_run (n s : ℕ) (hs : s < 16) (q : Fin 1024) : rowW (16 * (n / 16) + s) q = rowW n q :=
  Fin.ext (by show 1024 * ((16 * (n / 16) + s) / 16 % 4) + q.val = 1024 * (n / 16 % 4) + q.val; omega)
/-- and the contraction block is the run's position. -/
theorem colK_run (n s : ℕ) (hs : s < 16) (k : Fin 256) : colK (16 * (n / 16) + s) k = colK s k :=
  Fin.ext (by show 256 * ((16 * (n / 16) + s) % 16) + k.val = 256 * (s % 16) + k.val; omega)

/-! ## Regrouping a sum into consecutive runs -/

/-- A sum over `a·b` naturals is the sum over `a` consecutive runs of `b`. -/
theorem sum_range_mul {M : Type*} [AddCommMonoid M] (f : ℕ → M) (a b : ℕ) :
    ∑ k ∈ Finset.range (a * b), f k = ∑ s ∈ Finset.range a, ∑ r ∈ Finset.range b, f (b * s + r) := by
  induction a with
  | zero => simp
  | succ a ih => rw [Nat.succ_mul, Finset.sum_range_add, ih, Finset.sum_range_succ, Nat.mul_comm a b]

/-- A sum over the 4096 contraction indices is the sum over 16 blocks of 256. -/
theorem sum_kblocks {M : Type*} [AddCommMonoid M] (g : Fin 4096 → M) :
    ∑ k : Fin 4096, g k = ∑ s ∈ Finset.range 16, ∑ r : Fin 256, g (colK s r) := by
  have tot : ∀ k : ℕ, k % 4096 < 4096 := fun k => Nat.mod_lt _ (by decide)
  have e1 : ∑ k : Fin 4096, g k = ∑ k ∈ Finset.range (16 * 256), g ⟨k % 4096, tot k⟩ := by
    rw [← Fin.sum_univ_eq_sum_range (fun k => g ⟨k % 4096, tot k⟩) (16 * 256)]
    exact Finset.sum_congr rfl fun k _ => congrArg g (Fin.ext (Nat.mod_eq_of_lt k.isLt).symm)
  rw [e1, sum_range_mul]
  refine Finset.sum_congr rfl fun s hs => ?_
  have hs' : s < 16 := Finset.mem_range.mp hs
  rw [← Fin.sum_univ_eq_sum_range (fun r => g ⟨(256 * s + r) % 4096, tot _⟩) 256]
  refine Finset.sum_congr rfl fun r _ => congrArg g (Fin.ext ?_)
  have := r.isLt
  show (256 * s + r.val) % 4096 = 256 * (s % 16) + r.val
  omega

/-! ## The result as one function of the arrays -/

/-- The layer on the merged activations: Y(r, n) = Σ_k X(r, k) · (W(n, k) · S(n, 0)). -/
def lin2 (X : (⟨2, ![8192, 4096]⟩ : Shape).Idx → EReal) (W : (⟨2, ![4096, 4096]⟩ : Shape).Idx → EReal)
    (S : (⟨2, ![4096, 1]⟩ : Shape).Idx → EReal) : (⟨2, ![8192, 4096]⟩ : Shape).Idx → EReal :=
  fun j => ∑ k : Fin 4096, X (ix2 (j 0 : Fin 8192) k) * (W (ix2 (j 1 : Fin 4096) k) * S (ix2 (j 1 : Fin 4096) (0 : Fin 1)))

/-- The layer on the input as given: Y(b, s, n) = Σ_k x(b, s, k) · (W(n, k) · S(n, 0)). -/
def lin3 (x : (⟨3, ![4, 2048, 4096]⟩ : Shape).Idx → EReal) (W : (⟨2, ![4096, 4096]⟩ : Shape).Idx → EReal)
    (S : (⟨2, ![4096, 1]⟩ : Shape).Idx → EReal) : (⟨3, ![4, 2048, 4096]⟩ : Shape).Idx → EReal :=
  fun i => ∑ k : Fin 4096, x (ix3 (i 0 : Fin 4) (i 1 : Fin 2048) k) * (W (ix2 (i 2 : Fin 4096) k) * S (ix2 (i 2 : Fin 4096) (0 : Fin 1)))

/-- The merged layer at entry (r, n). -/
theorem lin2_apply (X : (⟨2, ![8192, 4096]⟩ : Shape).Idx → EReal) (W : (⟨2, ![4096, 4096]⟩ : Shape).Idx → EReal)
    (S : (⟨2, ![4096, 1]⟩ : Shape).Idx → EReal) (r : Fin 8192) (n : Fin 4096) :
    lin2 X W S (ix2 r n) = ∑ k : Fin 4096, X (ix2 r k) * (W (ix2 n k) * S (ix2 n (0 : Fin 1))) := rfl

/-- The layer at entry (b, s, n). -/
theorem lin3_apply (x : (⟨3, ![4, 2048, 4096]⟩ : Shape).Idx → EReal) (W : (⟨2, ![4096, 4096]⟩ : Shape).Idx → EReal)
    (S : (⟨2, ![4096, 1]⟩ : Shape).Idx → EReal) (b : Fin 4) (s : Fin 2048) (n : Fin 4096) :
    lin3 x W S (ix3 b s n) = ∑ k : Fin 4096, x (ix3 b s k) * (W (ix2 n k) * S (ix2 n (0 : Fin 1))) := rfl

/-- What grid point number `n` adds at entry (p, q) of its output block: the partial sum over its 256 contraction
    indices. -/
def addend (X : (⟨2, ![8192, 4096]⟩ : Shape).Idx → EReal) (W : (⟨2, ![4096, 4096]⟩ : Shape).Idx → EReal)
    (S : (⟨2, ![4096, 1]⟩ : Shape).Idx → EReal) (n : ℕ) (p : Fin 2048) (q : Fin 1024) : EReal :=
  ∑ k : Fin 256, X (ix2 (rowX n p) (colK n k)) * (W (ix2 (rowW n q) (colK n k)) * S (ix2 (rowW n q) (0 : Fin 1)))

/-- The 16 addends of one run of the contraction axis sum to the layer's entry. -/
theorem sum_addends (X : (⟨2, ![8192, 4096]⟩ : Shape).Idx → EReal) (W : (⟨2, ![4096, 4096]⟩ : Shape).Idx → EReal)
    (S : (⟨2, ![4096, 1]⟩ : Shape).Idx → EReal) (n : ℕ) (p : Fin 2048) (q : Fin 1024) :
    ∑ s ∈ Finset.range 16, addend X W S (16 * (n / 16) + s) p q = lin2 X W S (ix2 (rowX n p) (rowW n q)) := by
  rw [lin2_apply, sum_kblocks]
  refine Finset.sum_congr rfl fun s hs => ?_
  have hs' : s < 16 := Finset.mem_range.mp hs
  unfold addend
  refine Finset.sum_congr rfl fun k _ => ?_
  rw [rowX_run n s hs', rowW_run n s hs', colK_run n s hs']

end Cert.QLinear

end
-- ==== Proof.RefValue.lean ====
/-
  The reference, read at an entry over the extended reals: it broadcasts the scale column along the rows of the
  weights, multiplies, and contracts the input's last axis with the dequantized weights' second — entry (b, s, n) is
  `Σ_k x(b, s, k) · (W(n, k) · S(n, 0))`, the layer of its three arguments.
-/
import proofs.«155991_j51900384804990_2_alg».proof.Defs
import proofs.«155991_j51900384804990_2_alg».proof.Proof.Gen.ReferenceIdeal.Run
import proofs.«155991_j51900384804990_2_alg».proof.Proof.Gen.ReferenceIdeal.Read
import proofs.«155991_j51900384804990_2_alg».proof.Proof.Spec

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.Read Idealize.ShloMosaic.ValueIdx Cert.QLinear

/-- The reference's result is the layer of its arguments. -/
theorem ref_eq (x0 : (⟨S4x2048x4096, .f32⟩ : BufTy).Contents (Elt Ideal)) (x1 : (⟨S4096x4096, .f32⟩ : BufTy).Contents (Elt Ideal))
    (x2 : (⟨S4096x1, .f32⟩ : BufTy).Contents (Elt Ideal)) :
    val_main_v2 (F := Ideal) x0 x1 x2 = lin3 x0 x1 x2 := by
  funext i
  rw [val_main_v2_apply]
  show _ = ∑ k : Fin 4096, x0 (ix3 (i 0 : Fin 4) (i 1 : Fin 2048) k) * (x1 (ix2 (i 2 : Fin 4096) k) * x2 (ix2 (i 2 : Fin 4096) (0 : Fin 1)))
  refine Finset.sum_congr rfl fun k _ => ?_
  rw [val_main_v1_apply, val_main_v0_apply]
  have e0 : lidx_main_v2 i k = ix3 (i 0 : Fin 4) (i 1 : Fin 2048) k :=
    funext fun a => by match a with | ⟨0, _⟩ => rfl | ⟨1, _⟩ => rfl | ⟨2, _⟩ => rfl
  have e1 : ridx_main_v2 i k = ix2 (i 2 : Fin 4096) k :=
    funext fun a => by match a with | ⟨0, _⟩ => rfl | ⟨1, _⟩ => rfl
  have e2 : idx_main_v0 (ix2 (i 2 : Fin 4096) k) = ix2 (i 2 : Fin 4096) (0 : Fin 1) :=
    funext fun a => by match a with | ⟨0, _⟩ => rfl | ⟨1, _⟩ => rfl
  rw [e0, e1, e2]
  rfl

end Cert.ReferenceIdeal.RefValue

end
-- ==== Proof.Pieces.lean ====
/-
  What one grid point leaves in the output block's buffer, read as a value.

  The body at grid point (i, j, k) multiplies the [2048, 256] block of the activations by the transpose of the
  dequantized [1024, 256] weight block (weight times its row's scale) into a zero accumulator — `step` — and adds
  that to what the [2048, 1024] output block holds. At k = 0 the block is first reset to zero and read back, so the
  point leaves `0 + step`; at every other k it leaves `(what the point before left) + step`.
-/
import proofs.«155991_j51900384804990_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The zero block the reset stores. -/
abbrev zero : Vec F S2048x1024 .f32 := broadcast S2048x1024 (Scalar.ofBits .f32 0x00000000#32)

/-- One grid point's addend: the activations' block times the transposed dequantized weight block, both cast to
    bf16, into a zero accumulator. -/
def step (x0 : Vec F S2048x256 .f32) (x1 : Vec F S1024x256 .f32) (x2 : Vec F S1024x1 .f32) : Vec F S2048x1024 .f32 :=
  matmul dot_S2048x256_S1024x256_S2048x1024_1_1_0_0_n_n none
    (truncf .bf16 x0 bitsLt_bf16_f32)
    (truncf .bf16 (mulf x1 (broadcastTo S1024x256 x2 broadcasts_S1024x1_S1024x256)) bitsLt_bf16_f32)
    (constant S2048x1024 .f32 0x00000000#32)

/-- A point with k ≠ 0: the output block, holding `xo`, ends at `xo + step`. -/
theorem out_B (c : Dev nD) (i : grid0.Coords) (a3 : Memref sig .tc .vmem S2048x256 .f32) (h3 : a3.IsWhole)
    (a4 : Memref sig .tc .vmem S1024x256 .f32) (h4 : a4.IsWhole) (a5 : Memref sig .tc .vmem S1024x1 .f32) (h5 : a5.IsWhole)
    (a6 : Memref sig .tc .vmem S2048x1024 .f32) (h6 : a6.IsWhole) (hc : ¬cond0_0 i)
    (x0 : Vec F S2048x256 .f32) (x1 : Vec F S1024x256 .f32) (x2 : Vec F S1024x1 .f32) (xo : Vec F S2048x1024 .f32) :
    out0_B_3 c i a3 h3 a4 h4 a5 h5 a6 h6 hc x0 x1 x2 xo = addf xo (step x0 x1 x2) := by
  unfold out0_B_3
  rw [View.read_writes_eq_canon _ _ _ (cover0_B_3 c i a3 h3 a4 h4 a5 h5 a6 h6 hc x0 x1 x2 xo)]
  unfold kernelRun0_B
  dsimp only
  rw [View.canon_unit_zero hz]
  unfold k0_pay2 step
  simp only [View.readAt_eq_ld, h3.read_unread, h4.read_unread, h5.read_unread, h6.read_unread,
    View.ld_unit_zero (S := S2048x256) hz, View.ld_unit_zero (S := S1024x256) hz, View.ld_unit_zero (S := S1024x1) hz,
    View.ld_unit_zero (S := S2048x1024) hz, shapeCast_self]

/-- A point with k = 0: the output block is reset to zero, read back, and ends at `0 + step`. -/
theorem out_A (c : Dev nD) (i : grid0.Coords) (a3 : Memref sig .tc .vmem S2048x256 .f32) (h3 : a3.IsWhole)
    (a4 : Memref sig .tc .vmem S1024x256 .f32) (h4 : a4.IsWhole) (a5 : Memref sig .tc .vmem S1024x1 .f32) (h5 : a5.IsWhole)
    (a6 : Memref sig .tc .vmem S2048x1024 .f32) (h6 : a6.IsWhole) (hc : cond0_0 i)
    (x0 : Vec F S2048x256 .f32) (x1 : Vec F S1024x256 .f32) (x2 : Vec F S1024x1 .f32) :
    out0_A_3 c i a3 h3 a4 h4 a5 h5 a6 h6 hc x0 x1 x2 = addf zero (step x0 x1 x2) := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S2048x1024) hz, View.readCov_unit_zero (S := S2048x1024) _ hz]
  unfold k0_pay2 k0_pay1 step
  simp only [View.readAt_eq_ld, h3.read_unread, h4.read_unread, h5.read_unread,
    View.ld_unit_zero (S := S2048x256) hz, View.ld_unit_zero (S := S1024x256) hz, View.ld_unit_zero (S := S1024x1) hz,
    shapeCast_self]

end Cert.KernelIdeal.Acc

end
-- ==== Proof.StepValue.lean ====
/-
  One grid point's addend read at an entry, over the extended reals: entry (p, q) of the block product is
  `Σ_{k < 256} x(p, k) · (w(q, k) · s(q, 0))` — the casts to bf16 are the identity on exact values, the scale column is
  broadcast along the row, and the product contracts both operands' second axis into a zero accumulator.
-/
import proofs.«155991_j51900384804990_2_alg».proof.Proof.Pieces
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

/-- The contraction's operand indices: the left operand is read at (output row, k), the right at (output column, k). -/
theorem dot_lhs0 (j : S2048x1024.Idx) (r : dot_S2048x256_S1024x256_S2048x1024_1_1_0_0_n_n.contr.Idx) : (dot_S2048x256_S1024x256_S2048x1024_1_1_0_0_n_n.lhsIdx j r 0).val = (j 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem dot_lhs1 (j : S2048x1024.Idx) (r : dot_S2048x256_S1024x256_S2048x1024_1_1_0_0_n_n.contr.Idx) : (dot_S2048x256_S1024x256_S2048x1024_1_1_0_0_n_n.lhsIdx j r 1).val = (r ⟨0, by decide⟩).val :=
  dot_S2048x256_S1024x256_S2048x1024_1_1_0_0_n_n.lhsIdx_val_of_single rfl j r
theorem dot_rhs0 (j : S2048x1024.Idx) (r : dot_S2048x256_S1024x256_S2048x1024_1_1_0_0_n_n.contr.Idx) : (dot_S2048x256_S1024x256_S2048x1024_1_1_0_0_n_n.rhsIdx j r 0).val = (j 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem dot_rhs1 (j : S2048x1024.Idx) (r : dot_S2048x256_S1024x256_S2048x1024_1_1_0_0_n_n.contr.Idx) : (dot_S2048x256_S1024x256_S2048x1024_1_1_0_0_n_n.rhsIdx j r 1).val = (r ⟨0, by decide⟩).val :=
  dot_S2048x256_S1024x256_S2048x1024_1_1_0_0_n_n.rhsIdx_val_of_single rfl j r

/-- The dequantized weight block at (q, k): the weight times its row's scale. -/
theorem deq_apply (x1 : Vec Ideal S1024x256 .f32) (x2 : Vec Ideal S1024x1 .f32) (q : Fin 1024) (k : Fin 256) :
    (truncf .bf16 (mulf x1 (broadcastTo S1024x256 x2 broadcasts_S1024x1_S1024x256)) bitsLt_bf16_f32 : FVec Ideal S1024x256 .bf16) (ix2 q k)
      = x1 (ix2 q k) * x2 (ix2 q (0 : Fin 1)) := by
  rw [truncf_apply, mulf_apply]
  refine congrArg (x1 (ix2 q k) * ·) ?_
  exact broadcastTo_apply x2 broadcasts_S1024x1_S1024x256 (ix2 q k) (ix2 q (0 : Fin 1)) (fun a => match a with
    | ⟨0, _⟩ => by show q.val = if (1024 : Nat) = 1 then 0 else q.val; rw [if_neg (by decide)]
    | ⟨1, _⟩ => by show (0 : Nat) = if (1 : Nat) = 1 then 0 else k.val; rw [if_pos rfl])

/-- Entry (p, q) of one grid point's addend. -/
theorem step_apply (x0 : Vec Ideal S2048x256 .f32) (x1 : Vec Ideal S1024x256 .f32) (x2 : Vec Ideal S1024x1 .f32)
    (p : Fin 2048) (q : Fin 1024) :
    step (F := Ideal) x0 x1 x2 (ix2 p q) = ∑ k : Fin 256, x0 (ix2 p k) * (x1 (ix2 q k) * x2 (ix2 q (0 : Fin 1))) := by
  unfold step
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q) ((contrEquiv1 dot_S2048x256_S1024x256_S2048x1024_1_1_0_0_n_n 256 rfl rfl).symm k) = ix2 p k := funext fun a => Fin.ext (by
    match a with
    | ⟨0, _⟩ => exact dot_lhs0 _ _
    | ⟨1, _⟩ => exact (dot_lhs1 _ _).trans hk)
  have er : dot_S2048x256_S1024x256_S2048x1024_1_1_0_0_n_n.rhsIdx (ix2 p q) ((contrEquiv1 dot_S2048x256_S1024x256_S2048x1024_1_1_0_0_n_n 256 rfl rfl).symm k) = ix2 q k := funext fun a => Fin.ext (by
    match a with
    | ⟨0, _⟩ => exact dot_rhs0 _ _
    | ⟨1, _⟩ => exact (dot_rhs1 _ _).trans hk)
  rw [el, er, deq_apply, truncf_apply]

end Cert.KernelIdeal.Acc

end
-- ==== Proof.Blocks.lean ====
/-
  Where a block's entry sits in its array. Grid point number n stands for (i, j, k) = (n / 64, n / 16 mod 4, n mod 16):
  the activations' block at it is rows 2048·i …, columns 256·k … of the [8192, 4096] activations; the weight block is
  rows 1024·j …, columns 256·k … of the [4096, 4096] weights; the scale block is rows 1024·j … of the [4096, 1] scales;
  the output block is rows 2048·i …, columns 1024·j … of the [8192, 4096] result.
-/
import proofs.«155991_j51900384804990_2_alg».proof.Proof.Gen.KernelIdeal.Frame
import proofs.«155991_j51900384804990_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QLinear

variable {F : FTy → Type} [FloatOps F]
variable (m : (ℓ : Loc nD τ sig) → Buf (Elt F) ℓ)

/-- The printed index maps in closed form, decided over the grid's 256 points. -/
theorem index0 : ∀ t : Fin cfg0.N, win0_0.index t 0 = t.val / 64 % 4 ∧ win0_0.index t 1 = t.val % 16 :=
  (by decide +kernel : ∀ t : Fin grid0.N, win0_0.index t 0 = t.val / 64 % 4 ∧ win0_0.index t 1 = t.val % 16)
theorem index1 : ∀ t : Fin cfg0.N, win0_1.index t 0 = t.val / 16 % 4 ∧ win0_1.index t 1 = t.val % 16 :=
  (by decide +kernel : ∀ t : Fin grid0.N, win0_1.index t 0 = t.val / 16 % 4 ∧ win0_1.index t 1 = t.val % 16)
theorem index2 : ∀ t : Fin cfg0.N, win0_2.index t 0 = t.val / 16 % 4 ∧ win0_2.index t 1 = 0 :=
  (by decide +kernel : ∀ t : Fin grid0.N, win0_2.index t 0 = t.val / 16 % 4 ∧ win0_2.index t 1 = 0)
theorem index3 : ∀ t : Fin cfg0.N, win0_3.index t 0 = t.val / 64 % 4 ∧ win0_3.index t 1 = t.val / 16 % 4 :=
  (by decide +kernel : ∀ t : Fin grid0.N, win0_3.index t 0 = t.val / 64 % 4 ∧ win0_3.index t 1 = t.val / 16 % 4)

/-- The activations' block at point `t`, entry (p, k). -/
theorem iblk0_apply (c : Dev nD) (t : Fin cfg0.N) (p : Fin 2048) (k : Fin 256) :
    (iblk m c 0 t : Vec F S2048x256 .f32) (ix2 p k) = V m c main_v0 (ix2 (rowX t.val p) (colK t.val k)) := by
  unfold iblk
  rw [View.read_apply]
  show V m c main_v0 _ = V m c main_v0 _
  congr 1
  funext a
  apply Fin.ext
  match a with
  | ⟨0, _⟩ => show win0_0.index t 0 * 2048 + 1 * p.val = 2048 * (t.val / 64 % 4) + p.val; rw [(index0 t).1]; omega
  | ⟨1, _⟩ => show win0_0.index t 1 * 256 + 1 * k.val = 256 * (t.val % 16) + k.val; rw [(index0 t).2]; omega

/-- The weights' block at point `t`, entry (q, k). -/
theorem iblk1_apply (c : Dev nD) (t : Fin cfg0.N) (q : Fin 1024) (k : Fin 256) :
    (iblk m c 1 t : Vec F S1024x256 .f32) (ix2 q k) = V m c main_arg1 (ix2 (rowW t.val q) (colK t.val k)) := by
  unfold iblk
  rw [View.read_apply]
  show V m c main_arg1 _ = V m c main_arg1 _
  congr 1
  funext a
  apply Fin.ext
  match a with
  | ⟨0, _⟩ => show win0_1.index t 0 * 1024 + 1 * q.val = 1024 * (t.val / 16 % 4) + q.val; rw [(index1 t).1]; omega
  | ⟨1, _⟩ => show win0_1.index t 1 * 256 + 1 * k.val = 256 * (t.val % 16) + k.val; rw [(index1 t).2]; omega

/-- The scales' block at point `t`, entry (q, 0). -/
theorem iblk2_apply (c : Dev nD) (t : Fin cfg0.N) (q : Fin 1024) :
    (iblk m c 2 t : Vec F S1024x1 .f32) (ix2 q (0 : Fin 1)) = V m c main_arg2 (ix2 (rowW t.val q) (0 : Fin 1)) := by
  unfold iblk
  rw [View.read_apply]
  show V m c main_arg2 _ = V m c main_arg2 _
  congr 1
  funext a
  apply Fin.ext
  match a with
  | ⟨0, _⟩ => show win0_2.index t 0 * 1024 + 1 * q.val = 1024 * (t.val / 16 % 4) + q.val; rw [(index2 t).1]; omega
  | ⟨1, _⟩ => show win0_2.index t 1 * 1 + 1 * 0 = 0; rw [(index2 t).2]

end Cert.KernelIdeal.Acc

end
-- ==== Proof.Accumulate.lean ====
/-
  What the output block holds after each grid point, over the extended reals.

  Point number n = 16·u + kb is the kb-th point of the run u of the contraction axis. The run's first point resets the
  block and adds its addend; every later one adds its addend to what the point before left. So after point n the block
  holds, at entry (p, q), `0 + Σ_{s ≤ kb} addend(16·u + s)(p, q)` — by induction on the point, never by enumerating the
  grid.
-/
import proofs.«155991_j51900384804990_2_alg».proof.Proof.StepValue
import proofs.«155991_j51900384804990_2_alg».proof.Proof.Blocks

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QLinear

variable (m : (ℓ : Loc nD τ sig) → Buf (Elt Ideal) ℓ)

/-- One point's addend, at an entry, in terms of the arrays as the region finds them: the blocks are read where the
    windows put them. -/
theorem step_at (c : Dev nD) (t : Fin cfg0.N) (p : Fin 2048) (q : Fin 1024) :
    step (F := Ideal) (iblk m c 0 t) (iblk m c 1 t) (iblk m c 2 t) (ix2 p q)
      = addend (V m c main_v0) (V m c main_arg1) (V m c main_arg2) t.val p q := by
  refine (step_apply (iblk m c 0 t) (iblk m c 1 t) (iblk m c 2 t) p q).trans ?_
  unfold addend
  refine Finset.sum_congr rfl fun k _ => ?_
  rw [iblk0_apply m c t p k, iblk1_apply m c t q k, iblk2_apply m c t q]

/-- The zero block at an entry. -/
theorem zero_apply (j : S2048x1024.Idx) : (zero (F := Ideal)) j = 0 := Ideal.ofBits_zero_f32

/-- THE RUNNING SUM. After point `n` the output block holds zero plus the addends of its run up to `n`. -/
theorem outsAt_apply (c : Dev nD) (n : ℕ) : ∀ (h : n < cfg0.N) (p : Fin 2048) (q : Fin 1024),
    outsAt0 m c n h (ix2 p q)
      = 0 + ∑ s ∈ Finset.range (n % 16 + 1), addend (V m c main_v0) (V m c main_arg1) (V m c main_arg2) (16 * (n / 16) + s) p q := by
  induction n with
  | zero =>
    intro h p q
    rw [outsAt0_A m c ⟨0, h⟩ rfl, out_A, addf_apply, step_at m c ⟨0, h⟩ p q, zero_apply]
    simp
  | succ n ih =>
    intro h p q
    by_cases h0 : (n + 1) % 16 = 0
    · rw [outsAt0_A m c ⟨n + 1, h⟩ h0, out_A, addf_apply, step_at m c ⟨n + 1, h⟩ p q, zero_apply, h0,
        Finset.sum_range_one]
      have e : 16 * ((n + 1) / 16) + 0 = n + 1 := by omega
      rw [e]
    · rw [outsAt0_B m c ⟨n + 1, h⟩ h0, out_B, addf_apply, step_at m c ⟨n + 1, h⟩ p q]
      show outsAt0 m c n _ (ix2 p q) + _ = _
      rw [ih _ p q]
      have e1 : (n + 1) % 16 = n % 16 + 1 := by omega
      have e2 : (n + 1) / 16 = n / 16 := by omega
      have e3 : 16 * (n / 16) + (n % 16 + 1) = n + 1 := by omega
      rw [e1, e2, Finset.sum_range_succ _ (n % 16 + 1), add_assoc, e3]

end Cert.KernelIdeal.Acc

end
-- ==== Proof.Final.lean ====
/-
  From blocks to the array, and through the two reshapes.

  The output block (i, j) is written back once, after the last point of its run (point number ≡ 15 mod 16), when it
  holds zero plus all 16 addends — the layer's entries at rows 2048·i …, columns 1024·j …. The 16 written-back blocks tile
  the [8192, 4096] result, so the result array is the layer of the merged activations. The activations the region
  finds are the input with its two leading axes merged, and the program's result splits them again: entry (b, s, n) of
  the result is entry (2048·b + s, n) of the array, whose row reads the input at (b, s, ·).
-/
import proofs.«155991_j51900384804990_2_alg».proof.Proof.Accumulate
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QLinear

variable (m : (ℓ : Loc nD τ sig) → Buf (Elt Ideal) ℓ) (ρ : Dev nD → PrngReg)

/-- The layer of the arrays as the region finds them. -/
abbrev layer (c : Dev nD) : S8192x4096.Idx → EReal := lin2 (V m c main_v0) (V m c main_arg1) (V m c main_arg2)

/-- What a written-back block holds: the layer, read through the block. -/
theorem flushed_eq (c : Dev nD) (t : Fin cfg0.N) (hf : (cfg0.win 3).flush t = true) :
    (dats m 0 c).flushed 3 t = ((cfg0.win 3).blk t).view.read (Elt Ideal) (layer m c) := by
  have h15 : t.val % 16 = 15 := (flush0_3 t).mp hf
  show (cfg0.win 3).cut (grid0.coords t) ((dats m 0 c).after 3 t) = _
  rw [after0_3]
  funext y
  obtain ⟨p, q, rfl⟩ : ∃ (p : Fin 2048) (q : Fin 1024), y = ix2 p q := ⟨y 0, y 1, eq_ix2 y⟩
  show outsAt0 m c t.val t.isLt (ix2 p q) = layer m c (((cfg0.win 3).blk t).view.emb (ix2 p q))
  rw [outsAt_apply m c t.val t.isLt p q, h15, zero_add]
  refine (sum_addends _ _ _ t.val p q).trans (congrArg (layer m c) ?_)
  funext a
  apply Fin.ext
  match a with
  | ⟨0, _⟩ => show 2048 * (t.val / 64 % 4) + p.val = win0_3.index t 0 * 2048 + 1 * p.val; rw [(index3 t).1]; omega
  | ⟨1, _⟩ => show 1024 * (t.val / 16 % 4) + q.val = win0_3.index t 1 * 1024 + 1 * q.val; rw [(index3 t).2]; omega

/-- An entry of the result is in point `t`'s block iff each coordinate is in the block's range. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v1).slice (win0_3.rect t)).set ↔ _
  rw [View.set_slice_whole, Rect.mem_set_unit]
  exact Iff.rfl

/-- Every entry (r, n) of the result is in the block written back at the last point of the run (r / 2048, n / 1024). -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  obtain ⟨n, hn⟩ : ∃ n, n = 64 * ((i 0).val / 2048) + 16 * ((i 1).val / 1024) + 15 := ⟨_, rfl⟩
  have hlt : n < cfg0.N := by rw [hN]; omega
  refine ⟨⟨n, hlt⟩, (flush0_3 _).mpr (by show n % 16 = 15; omega), ?_⟩
  rw [mem_blk]
  obtain ⟨e0, e1⟩ := index3 ⟨n, hlt⟩
  intro a
  match a with
  | ⟨0, _⟩ =>
    show win0_3.index ⟨n, hlt⟩ 0 * 2048 ≤ (i 0).val ∧ (i 0).val < win0_3.index ⟨n, hlt⟩ 0 * 2048 + 2048
    rw [e0]; show n / 64 % 4 * 2048 ≤ (i 0).val ∧ (i 0).val < n / 64 % 4 * 2048 + 2048; omega
  | ⟨1, _⟩ =>
    show win0_3.index ⟨n, hlt⟩ 1 * 1024 ≤ (i 1).val ∧ (i 1).val < win0_3.index ⟨n, hlt⟩ 1 * 1024 + 1024
    rw [e1]; show n / 16 % 4 * 1024 ≤ (i 1).val ∧ (i 1).val < n / 16 % 4 * 1024 + 1024; omega

/-- The result array after the region: the layer of the arrays as the region finds them. -/
theorem final (c : Dev nD) : (dats m 0 c).arrAt 3 cfg0.N = layer m c :=
  (dats m 0 c).arrAt_eq_of_cover 3 (layer m c) (flushed_eq m c) cover

/-! ## The reshapes around the region -/

/-- The activations the region finds: the input with its two leading axes merged. -/
theorem entry_acts (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The program's result: the result array with its leading axis split again. -/
theorem tail_eq (c : Dev nD) : (Pipeline.afterTail₀ cfgs (dats m) 0 (V0 m) [hostOps1] c main_v2 : S4x2048x4096.Idx → EReal)
    = shapeCast S4x2048x4096 (layer m c) shapeCasts_S8192x4096_S4x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = layer m c := (Pipeline.withArrays_arr spec0 launch0.win.arr_inj c _ _ 3).trans (final m c)
  rw [e]
  rfl

/-- THE RESULT: the program's result is the layer of its three arguments — entry (b, s, n) is entry (2048·b + s, n) of
    the result array, and row 2048·b + s of the merged activations is row (b, s) of the input. -/
theorem result_eq (c : Dev nD) : (Pipeline.afterTail₀ cfgs (dats m) 0 (V0 m) [hostOps1] c main_v2 : S4x2048x4096.Idx → EReal)
    = lin3 (m ((c : Thread nD τ).loc main_arg0)) (m ((c : Thread nD τ).loc main_arg1)) (m ((c : Thread nD τ).loc main_arg2)) := by
  rw [tail_eq]
  funext i
  obtain ⟨b, s, n, rfl⟩ : ∃ (b : Fin 4) (s : Fin 2048) (n : Fin 4096), i = ix3 b s n := ⟨i 0, i 1, i 2, eq_ix3 i⟩
  have hb := b.isLt
  have hs := s.isLt
  have hr : 2048 * b.val + s.val < 8192 := by omega
  rw [shapeCast_apply (layer m c) shapeCasts_S8192x4096_S4x2048x4096 (ix3 b s n) (ix2 (⟨2048 * b.val + s.val, hr⟩ : Fin 8192) n)
    (by show (S8192x4096.rowMajor (ix2 (⟨2048 * b.val + s.val, hr⟩ : Fin 8192) n)).val = (S4x2048x4096.rowMajor (ix3 b s n)).val
        rw [Shape.rowMajor_val_two, Shape.rowMajor_val_three]
        show (2048 * b.val + s.val) * 4096 + n.val = (b.val * 2048 + s.val) * 4096 + n.val
        omega)]
  show lin2 (V m c main_v0) (V m c main_arg1) (V m c main_arg2) (ix2 (⟨2048 * b.val + s.val, hr⟩ : Fin 8192) n) = _
  rw [lin2_apply, lin3_apply, entry_acts, V_main_arg1, V_main_arg2]
  refine Finset.sum_congr rfl fun k _ => ?_
  rw [shapeCast_apply (m ((c : Thread nD τ).loc main_arg0)) shapeCasts_S4x2048x4096_S8192x4096
    (ix2 (⟨2048 * b.val + s.val, hr⟩ : Fin 8192) k) (ix3 b s k)
    (by show (S4x2048x4096.rowMajor (ix3 b s k)).val = (S8192x4096.rowMajor (ix2 (⟨2048 * b.val + s.val, hr⟩ : Fin 8192) k)).val
        rw [Shape.rowMajor_val_two, Shape.rowMajor_val_three]
        show (b.val * 2048 + s.val) * 4096 + k.val = (2048 * b.val + s.val) * 4096 + k.val
        omega)]

/-- The run, read: every weakly fair execution of the idealized kernel ends with its result at the layer of its
    arguments, and the arguments unchanged. -/
theorem run : θ_run defs (onTc (τ := τ) (main (F := Ideal))) ⟨m, fun _ => 0, ρ⟩ fun r => ∀ c : Dev nD,
      r.2.mem ((c.tc : Thread nD τ).loc main_v2)
        = lin3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc

end
-- ==== Proof.lean ====
/-
  The certificate of a quantized linear layer: a Pallas kernel that dequantizes the weights block by block (weight
  times its row's scale), multiplies in bf16 and accumulates over 16 steps of the contraction axis into the resident
  output block, against jnp's `einsum("bsi,oi->bso", x, qweight * scale)`.

  Over the extended reals both programs compute, at entry (b, s, n), `Σ_{k < 4096} x(b, s, k) · (W(n, k) · S(n, 0))`
  (Proof/Spec.lean `lin3`): the casts to bf16 are the identity on exact values, the kernel's reset-then-accumulate over
  the contraction blocks is `0 + Σ_{kb < 16} Σ_{kk < 256}` of the same products (Proof/Accumulate.lean), and a sum over
  4096 indices is the sum over its 16 runs of 256 (Proof/Spec.lean `sum_kblocks`) — commutativity and associativity of
  addition only, so the precondition that the inputs are finite is never opened. The 16 written-back blocks tile the
  result, and the reshapes around the kernel merge and split the two leading axes (Proof/Final.lean). The reference's
  side is Proof/RefValue.lean. The frames are the generated ones; the idealization rewrote nothing.
-/
import proofs.«155991_j51900384804990_2_alg».proof.Defs
import proofs.«155991_j51900384804990_2_alg».proof.Proof.Gen.Kernel
import proofs.«155991_j51900384804990_2_alg».proof.Proof.Gen.Kernel.Skeleton
import proofs.«155991_j51900384804990_2_alg».proof.Proof.Gen.Kernel.Launch
import proofs.«155991_j51900384804990_2_alg».proof.Proof.Gen.Kernel.Points
import proofs.«155991_j51900384804990_2_alg».proof.Proof.Gen.Kernel.Frame
import proofs.«155991_j51900384804990_2_alg».proof.Proof.Gen.KernelIdeal
import proofs.«155991_j51900384804990_2_alg».proof.Proof.Gen.KernelIdeal.Skeleton
import proofs.«155991_j51900384804990_2_alg».proof.Proof.Gen.KernelIdeal.Launch
import proofs.«155991_j51900384804990_2_alg».proof.Proof.Gen.KernelIdeal.Points
import proofs.«155991_j51900384804990_2_alg».proof.Proof.Gen.KernelIdeal.Frame
import proofs.«155991_j51900384804990_2_alg».proof.Proof.Gen.ReferenceIdeal
import proofs.«155991_j51900384804990_2_alg».proof.Proof.Gen.ReferenceIdeal.Run
import proofs.«155991_j51900384804990_2_alg».proof.Proof.Gen.ReferenceIdeal.Read
import proofs.«155991_j51900384804990_2_alg».proof.Proof.Gen.Pre_finite_inputs
import proofs.«155991_j51900384804990_2_alg».proof.Proof.RefValue
import proofs.«155991_j51900384804990_2_alg».proof.Proof.Final
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the arguments, both programs end with the layer of the
    arguments as their result. -/
theorem algebraic : Cert.algebraic_KernelIdeal_ReferenceIdeal := by
  intro m ρ m' ρ' _ hagree
  refine ⟨fun c => Cert.QLinear.lin3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
